-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : FVec F S128x128 .f32) (main_arg2 : FVec F S128 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 20
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S1x128, .f32⟩
  | .hbm, ⟨19, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S100000x128, .f32⟩
  | .hbm, ⟨19, _⟩ => ⟨S1x128, .f32⟩
  | .hbm, ⟨20, _⟩ => ⟨S100000x128, .f32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Entry.lean ====
/-
  What the dense layer's region finds in the two arrays the host wrote before it.

  The aggregated features (every edge's source row gathered, then added into the edge's destination row) are
  the same chain of host operations in both programs; it is carried as ONE function of the feature table and
  the two edge lists and never opened.  The bias enters the region as a one-row matrix: the bias vector cast
  to shape [1, 128].
-/
import proofs.«178888_j41609643164180_1_alg».proof.Proof.Gen.KernelIdeal.Frame
import proofs.«178888_j41609643164180_1_alg».proof.Proof.Gen.ReferenceIdeal.Read
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The aggregated features at region entry: the scatter-add of the gathered source rows, as a function of
    the feature table and the edge lists. -/
theorem aggregated (c : Dev nD) :
    (V m c main_v9 : S100000x128.Idx → Elt F .f32)
      = Cert.ReferenceIdeal.Read.val_main_v9 (F := F) (m ((c : Thread nD τ).loc main_arg0))
          (m ((c : Thread nD τ).loc main_arg3)) (m ((c : Thread nD τ).loc main_arg4)) := by
  dsimp only [V, hostOps0]
  after_results
  rfl

/-- The bias at region entry: the bias vector as a one-row matrix. -/
theorem biasRow (c : Dev nD) :
    (V m c main_v10 : S1x128.Idx → Elt F .f32)
      = shapeCast S1x128 (m ((c : Thread nD τ).loc main_arg2)) shapeCasts_S128_S1x128 := by
  dsimp only [V, hostOps0]
  after_results
  rfl

/-- The weights at region entry are the weight argument. -/
theorem weights (c : Dev nD) :
    (V m c main_arg1 : S128x128.Idx → Elt F .f32) = m ((c : Thread nD τ).loc main_arg1) :=
  V_main_arg1 m c

end Cert.KernelIdeal.Entry

end
-- ==== Proof.LibPlainDot.lean ====
/-
  A plain matrix product read at an index.

  For the dimension numbers of an M×K by K×N product (contract the left operand's columns against the right
  operand's rows, no batch axis), the sum over the contraction index of the products of the operands at the
  dot's operand indices is the textbook sum: entry (r, c) is the sum over k of left (r, k) times right (k, c).
  The same sum reads a vector unit's matmul into a zero accumulator and the host's dot_general at the ideal
  values, so the two are one function of their operands.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The textbook product of an M×K and a K×N array of extended reals. -/
def mm {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- The left operand's index at output index `j` and contraction index `q` is (row of `j`, `q`). -/
theorem lhsIdx_plain {M K N : Nat} (j : (⟨2, ![M, N]⟩ : Shape).Idx) (k : Fin K) :
    (DotDims.plain M K N).lhsIdx j ((contrEquiv1 (DotDims.plain M K N) K rfl rfl).symm k) = ix2 (j 0) k := by
  funext a
  apply Fin.ext
  have hk := contrEquiv1_symm_val (DotDims.plain M K N) K rfl rfl k
  match a with
  | ⟨0, _⟩ => rfl
  | ⟨1, _⟩ => exact ((DotDims.plain M K N).lhsIdx_val_of_single rfl j _).trans hk

/-- The right operand's index there is (`q`, column of `j`). -/
theorem rhsIdx_plain {M K N : Nat} (j : (⟨2, ![M, N]⟩ : Shape).Idx) (k : Fin K) :
    (DotDims.plain M K N).rhsIdx j ((contrEquiv1 (DotDims.plain M K N) K rfl rfl).symm k) = ix2 k (j 1) := by
  funext a
  apply Fin.ext
  have hk := contrEquiv1_symm_val (DotDims.plain M K N) K rfl rfl k
  match a with
  | ⟨0, _⟩ => exact ((DotDims.plain M K N).rhsIdx_val_of_single rfl j _).trans hk
  | ⟨1, _⟩ => rfl

/-- The contraction's sum, re-indexed by the one contracted coordinate. -/
theorem sum_plain {M K N : Nat} (A : (⟨2, ![M, K]⟩ : Shape).Idx → EReal) (B : (⟨2, ![K, N]⟩ : Shape).Idx → EReal)
    (j : (⟨2, ![M, N]⟩ : Shape).Idx) :
    ∑ q : (DotDims.plain M K N).contr.Idx, A ((DotDims.plain M K N).lhsIdx j q) * B ((DotDims.plain M K N).rhsIdx j q)
      = mm A B j := by
  unfold mm
  rw [← Equiv.sum_comp (contrEquiv1 (DotDims.plain M K N) K rfl rfl).symm]
  refine Finset.sum_congr rfl fun k _ => ?_
  rw [lhsIdx_plain, rhsIdx_plain]
  rfl

/-- A vector unit's matmul into the zero accumulator is the textbook product. -/
theorem matmul_zero_eq_mm {M K N : Nat} {φ₁ φ₂ : FTy} (prec : Option ContractPrecision)
    (A : FVec Ideal ⟨2, ![M, K]⟩ φ₁) (B : FVec Ideal ⟨2, ![K, N]⟩ φ₂) :
    FloatOps.matmul (DotDims.plain M K N) prec A B (constant ⟨2, ![M, N]⟩ .f32 0x00000000#32) = mm A B := by
  funext j
  rw [Ideal.matmul_constant_zero_apply]
  exact sum_plain A B j

/-- The host's dot_general is the textbook product, whatever the schedule. -/
theorem dotGeneral_eq_mm {M K N : Nat} {φ₁ φ₂ : FTy} (prec : Option ContractPrecision) (sched : HostSchedule)
    (A : FVec Ideal ⟨2, ![M, K]⟩ φ₁) (B : FVec Ideal ⟨2, ![K, N]⟩ φ₂) :
    FloatOps.dotGeneral (DotDims.plain M K N) prec sched A B = mm A B := by
  funext j
  rw [Ideal.dotGeneral_apply]
  exact sum_plain A B j

end Idealize.ShloMosaic.PlainDot

end
-- ==== Proof.Payload.lean ====
/-
  The body of the dense-layer kernel at one entry of its block.

  On a block of 5000 rows the body multiplies the block by the whole weight matrix into a zero accumulator,
  adds the one-row bias broadcast down the rows and clips at zero.  Rounding the two factors to a narrower
  format is the identity on extended reals, and the product into the zero accumulator is the plain sum over the
  128 contracted positions.  So entry (p, q) is  max (sum over k of x(p,k) * w(k,q) + bias(0,q), 0).
-/
import proofs.«178888_j41609643164180_1_alg».proof.Proof.Gen.KernelIdeal.Skeleton
import proofs.«178888_j41609643164180_1_alg».proof.Proof.LibPlainDot
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx

/-- Entry (p, q) of what the body stores, from the three blocks it loads. -/
theorem pay_apply (x0 : Vec Ideal S5000x128 .f32) (x1 : Vec Ideal S128x128 .f32) (x2 : Vec Ideal S1x128 .f32)
    (p : Fin 5000) (q : Fin 128) :
    k0_pay1 x0 x1 x2 (ix2 p q)
      = max ((∑ k : Fin 128, x0 (ix2 p k) * x1 (ix2 k q)) + x2 (ix2 (0 : Fin 1) q)) (Ideal.ofBits .f32 0x00000000#32) := by
  unfold k0_pay1
  show max (FloatOps.matmul (F := Ideal) dot_S5000x128_S128x128_S5000x128_1_0_0_1_n_n none
        (shapeCast S5000x128 x0 shapeCasts_S5000x128_S5000x128) x1 (constant (F := Ideal) S5000x128 .f32 0x00000000#32) (ix2 p q)
      + broadcastTo S5000x128 (shapeCast S1x128 x2 shapeCasts_S1x128_S1x128) broadcasts_S1x128_S5000x128 (ix2 p q))
      (Ideal.ofBits .f32 0x00000000#32) = _
  rw [shapeCast_self, shapeCast_self, broadcastTo_1b_ab_apply]
  exact congrArg (fun z => max (z + x2 (ix2 (0 : Fin 1) q)) (Ideal.ofBits .f32 0x00000000#32))
    (congrFun (PlainDot.matmul_zero_eq_mm none x0 x1) (ix2 p q))

end Cert.KernelIdeal.Body

end
-- ==== Proof.LayerSpec.lean ====
/-
  The dense layer with a rectifier, as one function of its three operands.

  For a feature matrix h of 100000 rows and 128 columns, a 128 by 128 weight matrix W and a bias vector b, the
  entry in row n and column f is  max (sum over k of h(n,k) * W(k,f) + b(f), 0)  on the extended reals.  Both
  programs compute this: nothing is regrouped, so no finiteness of the operands is used anywhere.
-/
import Idealize.ShloMosaic.PureOps.Ideal.Laws
import Idealize.ShloMosaic.Lib.ValueIdx
import proofs.«178888_j41609643164180_1_alg».proof.Proof.LibPlainDot

noncomputable section

namespace Cert.Layer

open Idealize.ShloMosaic Idealize.ShloMosaic.ValueIdx

/-- Row n of h against column f of W, plus the bias at f, clipped below at zero. -/
def denseRelu (h : (⟨2, ![100000, 128]⟩ : Shape).Idx → EReal) (W : (⟨2, ![128, 128]⟩ : Shape).Idx → EReal)
    (b : (⟨1, ![128]⟩ : Shape).Idx → EReal) : (⟨2, ![100000, 128]⟩ : Shape).Idx → EReal :=
  fun i => max (PlainDot.mm h W i + b (ix1 (i 1))) (Ideal.ofBits .f32 0x00000000#32)

/-- The same entry with the row and column named. -/
theorem denseRelu_ix2 (h : (⟨2, ![100000, 128]⟩ : Shape).Idx → EReal) (W : (⟨2, ![128, 128]⟩ : Shape).Idx → EReal)
    (b : (⟨1, ![128]⟩ : Shape).Idx → EReal) (n : Fin 100000) (f : Fin 128) :
    denseRelu h W b (ix2 n f)
      = max ((∑ k : Fin 128, h (ix2 n k) * W (ix2 k f)) + b (ix1 f)) (Ideal.ofBits .f32 0x00000000#32) := rfl

end Cert.Layer

end
-- ==== Proof.KernelValue.lean ====
/-
  The kernel program's result array is the dense layer with a rectifier applied to the aggregated features.

  The region runs over 20 grid points; point t reads rows 5000 t ... 5000 t + 4999 of the aggregated features, the
  whole weight matrix and the one-row bias, and writes rows 5000 t ... 5000 t + 4999 of the result.  Entry (p, q) of
  what point t writes is entry (5000 t + p, q) of the layer, because the body's entry depends only on row p of its
  feature block, column q of the weights and the bias at q.  The twenty row blocks tile the 100000 rows (row n lies
  in block n / 5000), so the array ends holding the layer everywhere.
-/
import proofs.«178888_j41609643164180_1_alg».proof.Proof.Gen.KernelIdeal.Value
import proofs.«178888_j41609643164180_1_alg».proof.Proof.Entry
import proofs.«178888_j41609643164180_1_alg».proof.Proof.Payload
import proofs.«178888_j41609643164180_1_alg».proof.Proof.LayerSpec
import Idealize.ShloMosaic.Lib.Pipeline.Value
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The aggregated features as a function of the feature table and the edge lists. -/
abbrev agg (c : Dev nD) : S100000x128.Idx → EReal :=
  Cert.ReferenceIdeal.Read.val_main_v9 (F := Ideal) (m ((c : Thread nD τ).loc main_arg0))
    (m ((c : Thread nD τ).loc main_arg3)) (m ((c : Thread nD τ).loc main_arg4))

/-- The result array: the layer of the aggregated features, the weights and the bias. -/
abbrev result (c : Dev nD) : Buf (Elt Ideal) ((c : Thread nD τ).loc main_v11) :=
  Cert.Layer.denseRelu (agg m c) (m ((c : Thread nD τ).loc main_arg1)) (m ((c : Thread nD τ).loc main_arg2))

/-- The block index of each window at point t: the feature and result blocks move down with t, the weights and
    the bias stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt20 (t : Fin cfg0.N) : t.val < 20 := lt_of_lt_of_eq t.isLt N_0

/-- Row p of point t's block is row 5000 t + p of the array. -/
def row (t : Fin cfg0.N) (p : Fin 5000) : Fin 100000 :=
  ⟨t.val * 5000 + p.val, by have := lt20 t; have := p.isLt; omega⟩

/-- The feature block at point t, entry (p, k), is the aggregated features at (5000 t + p, k). -/
theorem rows_read (c : Dev nD) (t : Fin cfg0.N) (p : Fin 5000) (k : Fin 128) :
    iblk m c 0 t (ix2 p k) = agg m c (ix2 (row t p) k) := by
  unfold iblk
  rw [View.read_apply, cast_eq]
  have hV : V m c (Pipeline.arrRef spec0 0) = agg m c := Entry.aggregated m c
  rw [hV]
  refine congrArg (agg m c) ?_
  obtain ⟨e0, e1, -⟩ := idx_facts t
  funext a; apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The weight block at every point is the weight argument. -/
theorem weights_read (c : Dev nD) (t : Fin cfg0.N) (k q : Fin 128) :
    iblk m c 1 t (ix2 k q) = m ((c : Thread nD τ).loc main_arg1) (ix2 k q) := by
  unfold iblk
  rw [View.read_apply, cast_eq]
  have hV : V m c (Pipeline.arrRef spec0 1) = m ((c : Thread nD τ).loc main_arg1) := Entry.weights m c
  rw [hV]
  refine congrArg (m ((c : Thread nD τ).loc main_arg1)) ?_
  obtain ⟨-, -, e2, e3, -⟩ := idx_facts t
  funext a; apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- The bias block at every point, entry (0, q), is the bias argument at q. -/
theorem bias_read (c : Dev nD) (t : Fin cfg0.N) (q : Fin 128) :
    iblk m c 2 t (ix2 (0 : Fin 1) q) = m ((c : Thread nD τ).loc main_arg2) (ix1 q) := by
  unfold iblk
  rw [View.read_apply, cast_eq]
  have hV : V m c (Pipeline.arrRef spec0 2)
      = shapeCast S1x128 (m ((c : Thread nD τ).loc main_arg2)) shapeCasts_S128_S1x128 := Entry.biasRow m c
  rw [hV]
  have he : ((cfg0.win 2).blk t).view.emb (ix2 (0 : Fin 1) q) = ix2 (0 : Fin 1) q := by
    obtain ⟨-, -, -, -, e4, e5, -⟩ := idx_facts t
    funext a; apply Fin.ext
    match a with
    | ⟨0, _⟩ => show win0_2.index t (0 : Fin 2) * 1 + 1 * (0 : Fin 1).val = (0 : Fin 1).val; rw [e4]; rfl
    | ⟨1, _⟩ => show win0_2.index t (1 : Fin 2) * 128 + 1 * q.val = q.val; rw [e5]; omega
  rw [he]
  exact shapeCast_a_1a_apply _ _ 0 q

/-- Entry (p, q) of point t's result block sits at (5000 t + p, q) of the result array. -/
theorem emb_out (t : Fin cfg0.N) (p : Fin 5000) (q : Fin 128) :
    ((cfg0.win 3).blk t).view.emb (ix2 p q) = ix2 (row t p) q := by
  obtain ⟨-, -, -, -, -, -, e6, e7⟩ := idx_facts t
  funext a; apply Fin.ext
  match a with
  | ⟨0, _⟩ => show win0_3.index t (0 : Fin 2) * 5000 + 1 * p.val = t.val * 5000 + p.val; rw [e6]; omega
  | ⟨1, _⟩ => show win0_3.index t (1 : Fin 2) * 128 + 1 * q.val = q.val; rw [e7]; omega

/-- A full block is written back whole: the result's blocks are never clipped at the array's end. -/
theorem cut_whole (t : Fin cfg0.N) (X : Vec Ideal S5000x128 .f32) : (cfg0.win 3).cut (grid0.coords t) X = X := rfl

/-- What point t writes back is block t of the layer. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3, cut_whole]
  unfold out0_3
  rw [View.canon_unit_zero hz]
  simp only [View.ld_unit_zero (S := S5000x128) hz, View.ld_unit_zero (S := S128x128) hz,
    View.ld_unit_zero (S := S1x128) hz]
  funext y
  obtain ⟨p, q, rfl⟩ : ∃ (p : Fin 5000) (q : Fin 128), y = ix2 p q := ⟨y 0, y 1, eq_ix2 y⟩
  rw [Body.pay_apply, View.read_apply, cast_eq, emb_out, bias_read]
  refine Eq.trans ?_ (Cert.Layer.denseRelu_ix2 (agg m c) (m ((c : Thread nD τ).loc main_arg1))
    (m ((c : Thread nD τ).loc main_arg2)) (row t p) q).symm
  refine congrArg (fun z => max (z + m ((c : Thread nD τ).loc main_arg2) (ix1 q)) (Ideal.ofBits .f32 0x00000000#32)) ?_
  exact Finset.sum_congr rfl fun k _ => by rw [rows_read, weights_read]

/-- An index is in point t's result block iff each coordinate is in the block's range. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v11).slice (win0_3.rect t)).set ↔ _
  rw [View.set_slice_whole, Rect.mem_set_unit]
  exact Iff.rfl

/-- Every index of the result array is in the block of the point its row falls in. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [e6, ht]; omega
  | ⟨1, _⟩ =>
    show win0_3.index t (1 : Fin 2) * 128 ≤ (i 1).val ∧ (i 1).val < win0_3.index t (1 : Fin 2) * 128 + 128
    rw [e7]; omega

/-- So the result array ends holding the layer. -/
theorem final (c : Dev nD) : (dats m 0 c).arrAt 3 cfg0.N = result m c :=
  (dats m 0 c).arrAt_eq_of_cover 3 (result m c) (fun t _ => flushed_eq m c t) cover

/-- The kernel program's run, read: the result at the layer of the aggregated features, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefValue.lean ====
/-
  The reference program's result is the dense layer with a rectifier applied to the aggregated features.

  After the shared gather and scatter-add the reference multiplies by the weights with one matrix product,
  adds the bias broadcast over the rows and takes the maximum with zero.  Read at an index this is the
  layer's defining formula; the aggregated features stay one unopened function of the arguments.
-/
import proofs.«178888_j41609643164180_1_alg».proof.Proof.Gen.ReferenceIdeal.Read
import proofs.«178888_j41609643164180_1_alg».proof.Proof.LayerSpec

noncomputable section

namespace Cert.ReferenceIdeal.RefValue

open Cert.ReferenceIdeal Cert.ReferenceIdeal.Gen Cert.ReferenceIdeal.Read Idealize.ShloMosaic Idealize.ShloMosaic.ValueIdx

/-- The reference's matrix product is the textbook product of the aggregated features with the weights. -/
theorem product_eq (h : FVec Ideal S100000x128 .f32) (x1 : FVec Ideal S128x128 .f32) :
    Host.dotGeneral (F := Ideal) dot_S100000x128_S128x128_S100000x128_1_0_0_1_n_n none h x1 = PlainDot.mm h x1 :=
  PlainDot.dotGeneral_eq_mm none _ h x1

/-- The reference's result, as a function of its arguments, is the layer of the aggregated features. -/
theorem result_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x3 x4 : (⟨S1600000, .i32⟩ : BufTy).Contents (Elt Ideal)) :
    val_main_v14 (F := Ideal) x0 x1 x2 x3 x4 = Cert.Layer.denseRelu (val_main_v9 (F := Ideal) x0 x3 x4) x1 x2 := by
  funext i
  rw [val_main_v14_apply, val_main_v13_apply, val_main_call0_v0_apply, val_main_call0_cst_apply, val_main_v12_apply,
    val_main_v11_apply]
  unfold val_main_v10
  generalize val_main_v9 (F := Ideal) x0 x3 x4 = h
  rw [product_eq]
  have hb : idx_main_v11 (idx_main_v12 i) = ix1 (i 1) := funext fun a => Fin.ext (by match a with | ⟨0, _⟩ => rfl)
  rw [hb]
  rfl

end Cert.ReferenceIdeal.RefValue

end
-- ==== Proof.lean ====
/-
  A graph-convolution layer: every edge copies its source node's feature row, the rows arriving at a node are
  added (a gather followed by a scatter-add over 1.6 million edges into 100000 rows of 128), and the sums pass
  through one dense layer with a rectifier,  out(n, f) = max (sum over k of h(n,k) * W(k,f) + b(f), 0).

  The kernel program and the reference share the gather and the scatter-add, operation for operation; they
  differ only in how the dense layer is carried out.  The kernel program cuts the 100000 rows into twenty blocks
  of 5000, and on each block rounds both factors to a narrower format, multiplies into a zero accumulator, adds
  the bias row and clips at zero.  The reference multiplies the whole matrix at once, adds the bias broadcast
  over the rows and takes the maximum with zero.  On the extended reals the rounding is the identity and both
  products are the same sum over the 128 contracted positions, so the two results agree entry by entry; the sum
  is never regrouped, and the finiteness of the inputs is not used.

  Entry          : what the region finds in the arrays the host wrote before it
  LayerSpec      : the layer as one function of its operands
  Payload        : one block's body at an entry
  KernelValue    : the twenty blocks tile the result, which is the layer of the aggregated features
  RefValue       : the reference's result is the same function
-/
import proofs.«178888_j41609643164180_1_alg».proof.Defs
import proofs.«178888_j41609643164180_1_alg».proof.Proof.Gen.Kernel
import proofs.«178888_j41609643164180_1_alg».proof.Proof.Gen.Kernel.Skeleton
import proofs.«178888_j41609643164180_1_alg».proof.Proof.Gen.Kernel.Launch
import proofs.«178888_j41609643164180_1_alg».proof.Proof.Gen.Kernel.Points
import proofs.«178888_j41609643164180_1_alg».proof.Proof.Gen.Kernel.Frame
import proofs.«178888_j41609643164180_1_alg».proof.Proof.Gen.KernelIdeal
import proofs.«178888_j41609643164180_1_alg».proof.Proof.Gen.KernelIdeal.Skeleton
import proofs.«178888_j41609643164180_1_alg».proof.Proof.Gen.KernelIdeal.Launch
import proofs.«178888_j41609643164180_1_alg».proof.Proof.Gen.KernelIdeal.Points
import proofs.«178888_j41609643164180_1_alg».proof.Proof.Gen.KernelIdeal.Frame
import proofs.«178888_j41609643164180_1_alg».proof.Proof.Gen.ReferenceIdeal
import proofs.«178888_j41609643164180_1_alg».proof.Proof.Gen.Pre_finite_inputs
import proofs.«178888_j41609643164180_1_alg».proof.Proof.Gen.KernelIdeal.Value
import proofs.«178888_j41609643164180_1_alg».proof.Proof.Gen.ReferenceIdeal.Run
import proofs.«178888_j41609643164180_1_alg».proof.Proof.Gen.ReferenceIdeal.Read
import proofs.«178888_j41609643164180_1_alg».proof.Proof.KernelValue
import proofs.«178888_j41609643164180_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed terminates without a fault and leaves its arguments as they were. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel program was rewritten when it was read on the extended reals. -/
theorem preserves : Cert.preserves_Kernel_KernelIdeal := trivial

/-- From memories that agree on the five arguments, both programs end with the result array at the dense layer
    of the aggregated features: the kernel program block by block, the reference in one product. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v14_eq, Cert.ReferenceIdeal.RefValue.result_eq, h0, h1, h2, h3, h4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
